-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S4096 .f32) (main_arg4 : FVec F S4096 .f32) (main_arg5 : FVec F S4096 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S8192x4096, .f32⟩
  | .hbm, ⟨17, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x2048x4096_S8192x4096 : S4x2048x4096.ShapeCasts S8192x4096
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  reduces_S256x4096_S256 : S256x4096.Reduces [1] S256
  shapeCasts_S256_S256x1 : S256.ShapeCasts S256x1
  broadcasts_S256x1_S256x4096 : S256x1.Broadcasts S256x4096
  shapeCasts_S8192x4096_S4x2048x4096 : S8192x4096.ShapeCasts S4x2048x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S8192x4096.size a
  hwx0_7 : ∀ i : grid0.Coords, EltTy.bits .f32 = 32 ∨ (Rect.block (s := S8192x4096) S256x4096.size (cc0_transform_7 i) (hinb0_7 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S4x2048x4096, .f32⟩
  | .hbm, ⟨40, _⟩ => ⟨S4x2048x4096, .f32⟩
  | .hbm, ⟨41, _⟩ => ⟨S1x1x4096, .f32⟩
  | .hbm, ⟨42, _⟩ => ⟨S4x2048x4096, .f32⟩
  | .hbm, ⟨43, _⟩ => ⟨S4x2048x4096, .f32⟩
  | .hbm, ⟨44, _⟩ => ⟨S1x1x4096, .f32⟩
  | .hbm, ⟨45, _⟩ => ⟨S4x2048x4096, .f32⟩
  | .hbm, ⟨46, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«163768_j88270167867535_2_alg».proof.Proof.LibRowLayers
import proofs.«163768_j88270167867535_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibLayerNormRows.lean ====
/-
  Rows normalised to zero mean and unit variance, over the extended reals.

  A layer normalisation treats every row `f` of an `[a, n]` array alone. With a divisor `c` (the row length as a
  float) and a guard `e` added under the root:
    • the row's mean is `(∑ j, f j) / c`                                   (`rowMean`),
    • the centred row is `j ↦ f j − mean`                                  (`centred`),
    • the normalised row is `j ↦ centred j · rsqrt ((∑ k, centred k²) / c + e)`   (`normRow`).
  Division and the inverse root are the extended reals' own (`Ideal.div`, `Ideal.rsqrt`), so nothing here needs the
  entries to be finite.

  The second half reads the device's spelling of this, for any number of rows and lanes: a sum along the lanes, the
  result re-laid as a column `[a, 1]`, divided by a splat scalar, broadcast back along the lanes and subtracted; the
  squares summed and divided the same way; a splat guard added, the inverse root taken on the column, and the column
  broadcast back and multiplied in. Entry `(p, q)` of that array is `normRow c e (row p) q`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«163768_j88270167867535_2_alg».proof.Proof.LibRowLayers
import proofs.«163768_j88270167867535_2_alg».proof.Proof.LibColumnBroadcast
import proofs.«163768_j88270167867535_2_alg».proof.Proof.LibChebRows

noncomputable section

namespace Cert.LayerNormRows

open Idealize.ShloMosaic Idealize.ShloMosaic.ValueIdx Cert.RowLayers

/-! ## The row functions -/

section Spec
variable {n : ℕ}

/-- The mean of a row with divisor `c`: `(∑ j, f j) / c`. -/
def rowMean (c : EReal) (f : Fin n → EReal) : EReal := Ideal.div (∑ j : Fin n, f j) c

/-- A row with its mean subtracted from every entry. -/
def centred (c : EReal) (f : Fin n → EReal) : Fin n → EReal := fun j => f j - rowMean c f

/-- A row normalised: centred, then scaled by the inverse root of its guarded variance. -/
def normRow (c e : EReal) (f : Fin n → EReal) : Fin n → EReal :=
  fun j => centred c f j * Ideal.rsqrt (rowMean c (fun k => centred c f k * centred c f k) + e)

/-- Rows that agree entry by entry have the same normalisation. -/
theorem normRow_congr (c e : EReal) {f g : Fin n → EReal} (h : ∀ j, f j = g j) : normRow c e f = normRow c e g := by
  rw [show f = g from funext h]

end Spec

/-! ## The device's spelling, read at an entry -/

section Device
variable {a n : ℕ} {φ : FTy}

/-- The column of row means: a lane sum re-laid as `[a, 1]` and divided by a splat `c` reads, at `(p, u)`, the
    mean of row `p`. -/
theorem meanColumn_apply (src : FVec Ideal ⟨2, ![a, n]⟩ φ) (acc : BitVec φ.bits)
    (hr : (⟨2, ![a, n]⟩ : Shape).Reduces [1] (⟨1, ![a]⟩ : Shape)) (hφ : FKind.Formats φ)
    (hacc : acc = FKind.add.neutral φ hφ) (hc : (⟨1, ![a]⟩ : Shape).ShapeCasts ⟨2, ![a, 1]⟩) (c : Ideal φ)
    (p : Fin a) (u : Fin 1) :
    divf (shapeCast ⟨2, ![a, 1]⟩ (multiReduction .add [1] ⟨1, ![a]⟩ src acc hr hφ hacc) hc) (broadcast ⟨2, ![a, 1]⟩ c) (ix2 p u)
      = rowMean c (rowOf src p) := by
  show Ideal.div (shapeCast ⟨2, ![a, 1]⟩ (multiReduction .add [1] ⟨1, ![a]⟩ src acc hr hφ hacc) hc (ix2 p u)) c = _
  rw [Cert.ChebRows.shapeCast_a_a1_apply, Cert.ChebRows.multiReduction_add_row]
  rfl

/-- The array with each row's mean subtracted reads, at `(p, q)`, the centred row `p` at `q`. -/
theorem centredArray_apply (src : FVec Ideal ⟨2, ![a, n]⟩ φ) (acc : BitVec φ.bits)
    (hr : (⟨2, ![a, n]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, n]⟩) (c : Ideal φ) (p : Fin a) (q : Fin n) :
    subf src (broadcastTo ⟨2, ![a, n]⟩
        (divf (shapeCast ⟨2, ![a, 1]⟩ (multiReduction .add [1] ⟨1, ![a]⟩ src acc hr hφ hacc) hc) (broadcast ⟨2, ![a, 1]⟩ c)) hb) (ix2 p q)
      = centred c (rowOf src p) q := by
  show src (ix2 p q) - broadcastTo ⟨2, ![a, n]⟩
        (divf (shapeCast ⟨2, ![a, 1]⟩ (multiReduction .add [1] ⟨1, ![a]⟩ src acc hr hφ hacc) hc) (broadcast ⟨2, ![a, 1]⟩ c)) hb (ix2 p q) = _
  rw [Cert.ColumnBroadcast.broadcastTo_a1_ab_apply, meanColumn_apply]
  rfl

/-- The whole normalisation in the device's spelling reads, at `(p, q)`, the normalised row `p` at `q`. -/
theorem normArray_apply (src : FVec Ideal ⟨2, ![a, n]⟩ φ) (acc : BitVec φ.bits)
    (hr : (⟨2, ![a, n]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, n]⟩) (c e : Ideal φ) (p : Fin a) (q : Fin n)
    (d : FVec Ideal ⟨2, ![a, n]⟩ φ)
    (hd : d = subf src (broadcastTo ⟨2, ![a, n]⟩
        (divf (shapeCast ⟨2, ![a, 1]⟩ (multiReduction .add [1] ⟨1, ![a]⟩ src acc hr hφ hacc) hc) (broadcast ⟨2, ![a, 1]⟩ c)) hb)) :
    mulf d (broadcastTo ⟨2, ![a, n]⟩
        (rsqrt (addf (divf (shapeCast ⟨2, ![a, 1]⟩ (multiReduction .add [1] ⟨1, ![a]⟩ (mulf d d) acc hr hφ hacc) hc)
          (broadcast ⟨2, ![a, 1]⟩ c)) (broadcast ⟨2, ![a, 1]⟩ e))) hb) (ix2 p q)
      = normRow c e (rowOf src p) q := by
  have hrow : ∀ k : Fin n, d (ix2 p k) = centred c (rowOf src p) k := fun k => by
    rw [hd]; exact centredArray_apply src acc hr hφ hacc hc hb c p k
  show d (ix2 p q) * broadcastTo ⟨2, ![a, n]⟩
        (rsqrt (addf (divf (shapeCast ⟨2, ![a, 1]⟩ (multiReduction .add [1] ⟨1, ![a]⟩ (mulf d d) acc hr hφ hacc) hc)
          (broadcast ⟨2, ![a, 1]⟩ c)) (broadcast ⟨2, ![a, 1]⟩ e))) hb (ix2 p q) = _
  rw [Cert.ColumnBroadcast.broadcastTo_a1_ab_apply]
  show d (ix2 p q) * Ideal.rsqrt
      (divf (shapeCast ⟨2, ![a, 1]⟩ (multiReduction .add [1] ⟨1, ![a]⟩ (mulf d d) acc hr hφ hacc) hc)
          (broadcast ⟨2, ![a, 1]⟩ c) (ix2 p (0 : Fin 1)) + e) = _
  rw [meanColumn_apply, hrow q]
  have hsq : rowOf (mulf d d) p = fun k => centred c (rowOf src p) k * centred c (rowOf src p) k :=
    funext fun k => by
      show d (ix2 p k) * d (ix2 p k) = _
      rw [hrow k]
  rw [hsq]
  rfl

end Device

end Cert.LayerNormRows

end
-- ==== Proof.RowSpec.lean ====
/-
  What one row of the result is, as a function of one row of the input and of the parameter vectors.

  For an input row `x` (length K), an input scale `s` (length K), a weight table `wt` read at (contracted position,
  output column) whose entries are signs, an output scale `so`, a bias `b`, and the normalisation's gain `g` and shift `bt`
  (length N):
    • the linear stage is `linRow j = (∑ k, (x k · s k) · wt k j) · so j + b j`;
    • the result row is `outRow j = normRow c e linRow j · g j + bt j`, the linear stage normalised to zero mean and unit
      variance (divisor `c`, guard `e`: LibLayerNormRows) and then scaled and shifted entry by entry.
  Both programs compute exactly this on every row; nothing in it needs the entries to be finite.
-/
import proofs.«163768_j88270167867535_2_alg».proof.Proof.LibLayerNormRows

noncomputable section

namespace Cert.SignLinearNorm

open Idealize.ShloMosaic Cert.LayerNormRows

variable {K N : ℕ}

/-- The scaled one-bit linear stage on a row. -/
def linRow (x s : Fin K → EReal) (wt : Fin K → Fin N → EReal) (so b : Fin N → EReal) : Fin N → EReal :=
  fun j => (∑ k : Fin K, (x k * s k) * wt k j) * so j + b j

/-- The result row: the linear stage normalised, then scaled by the gain and shifted. -/
def outRow (c e : EReal) (x s : Fin K → EReal) (wt : Fin K → Fin N → EReal) (so b g bt : Fin N → EReal) : Fin N → EReal :=
  fun j => normRow c e (linRow x s wt so b) j * g j + bt j

/-- The divisor both programs print: the f32 pattern of 4096. -/
def cLanes : EReal := Ideal.ofBits .f32 0x45800000#32
/-- The guard both programs print: the f32 pattern nearest 1e-5. -/
def cGuard : EReal := Ideal.ofBits .f32 0x3727C5AC#32

end Cert.SignLinearNorm

end
-- ==== Proof.ResultSpec.lean ====
/-
  The whole result, as one function of the seven argument arrays.

  Entry (a, s, n) of the [4, 2048, 4096] result is `outRow` (RowSpec) of the input row (a, s, ·), with the parameter vectors
  read entry by entry and the sign of the weight matrix read at (output column n, contracted position). Both programs are
  compared with this one function.
-/
import proofs.«163768_j88270167867535_2_alg».proof.Proof.RowSpec
import Idealize.ShloMosaic.Lib.ValueIdx

noncomputable section

namespace Cert.SignLinearNorm

open Idealize.ShloMosaic Idealize.ShloMosaic.ValueIdx

/-- The result array of the one-bit linear layer followed by a layer normalisation. -/
def resultOf (x0 : (⟨3, ![4, 2048, 4096]⟩ : Shape).Idx → EReal) (x1 : (⟨2, ![4096, 4096]⟩ : Shape).Idx → EReal)
    (x2 x3 x4 x5 x6 : (⟨1, ![4096]⟩ : Shape).Idx → EReal) : (⟨3, ![4, 2048, 4096]⟩ : Shape).Idx → EReal :=
  fun i => outRow cLanes cGuard (fun k => x0 (ix3 (i 0) (i 1) k)) (fun k => x2 (ix1 k)) (fun k j => Ideal.sign (x1 (ix2 j k)))
    (fun j => x3 (ix1 j)) (fun j => x4 (ix1 j)) (fun j => x5 (ix1 j)) (fun j => x6 (ix1 j)) (i 2)

/-- The result at an index given by coordinates. -/
theorem resultOf_apply (x0 : (⟨3, ![4, 2048, 4096]⟩ : Shape).Idx → EReal) (x1 : (⟨2, ![4096, 4096]⟩ : Shape).Idx → EReal)
    (x2 x3 x4 x5 x6 : (⟨1, ![4096]⟩ : Shape).Idx → EReal) (a : Fin 4) (s : Fin 2048) (n : Fin 4096) :
    resultOf x0 x1 x2 x3 x4 x5 x6 (ix3 a s n)
      = outRow cLanes cGuard (fun k => x0 (ix3 a s k)) (fun k => x2 (ix1 k)) (fun k j => Ideal.sign (x1 (ix2 j k)))
          (fun j => x3 (ix1 j)) (fun j => x4 (ix1 j)) (fun j => x5 (ix1 j)) (fun j => x6 (ix1 j)) n := rfl

end Cert.SignLinearNorm

end
-- ==== Proof.RefRows.lean ====
/-
  The reference's result, read entry by entry.

  The reference works on the [4, 2048, 4096] array directly: entry (a, s, n) of its result depends only on the input row
  (a, s, ·). Its linear stage contracts that row (scaled entry by entry) with row n of the sign of the weight matrix; its
  mean and variance are sums along the last axis started from a zero constant, kept as [4, 2048, 1] and broadcast back.
  Walking the operations outermost first, the entry is `outRow` of RowSpec on that input row, with the sign table read at
  (output column, contracted position). The zero the sums start from is the real zero, which is all the arithmetic used.
-/
import proofs.«163768_j88270167867535_2_alg».proof.Proof.Gen.ReferenceIdeal.Read
import proofs.«163768_j88270167867535_2_alg».proof.Proof.RowSpec
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx
open Cert.LayerNormRows Cert.SignLinearNorm

/-! ## The operations' index maps, at an index given by coordinates -/

section Indices
variable (a : Fin 4) (s : Fin 2048) (n k : Fin 4096) (u : Fin 1)

theorem lidx4 : lidx_main_v4 (ix3 a s n) k = ix3 a s k :=
  funext fun d => Fin.ext (by match d with | ⟨0, _⟩ => rfl | ⟨1, _⟩ => rfl | ⟨2, _⟩ => rfl)
theorem ridx4 : ridx_main_v4 (ix3 a s n) k = ix2 n k :=
  funext fun d => Fin.ext (by match d with | ⟨0, _⟩ => rfl | ⟨1, _⟩ => rfl)
theorem idx2 : idx_main_v1 (idx_main_v2 (ix3 a s k)) = ix1 k :=
  funext fun d => Fin.ext (by match d with | ⟨0, _⟩ => rfl)
theorem idx6 : idx_main_v5 (idx_main_v6 (ix3 a s n)) = ix1 n :=
  funext fun d => Fin.ext (by match d with | ⟨0, _⟩ => rfl)
theorem idx9 : idx_main_v8 (idx_main_v9 (ix3 a s n)) = ix1 n :=
  funext fun d => Fin.ext (by match d with | ⟨0, _⟩ => rfl)
theorem idx30 : idx_main_v29 (idx_main_v30 (ix3 a s n)) = ix1 n :=
  funext fun d => Fin.ext (by match d with | ⟨0, _⟩ => rfl)
theorem idx33 : idx_main_v32 (idx_main_v33 (ix3 a s n)) = ix1 n :=
  funext fun d => Fin.ext (by match d with | ⟨0, _⟩ => rfl)
theorem idx11 : idx_main_v11 (idx_main_v12 (ix3 a s u)) k = ix3 a s k :=
  funext fun d => Fin.ext (by match d with | ⟨0, _⟩ => rfl | ⟨1, _⟩ => rfl | ⟨2, _⟩ => rfl)
theorem idx18 : idx_main_v18 (idx_main_v19 (ix3 a s u)) k = ix3 a s k :=
  funext fun d => Fin.ext (by match d with | ⟨0, _⟩ => rfl | ⟨1, _⟩ => rfl | ⟨2, _⟩ => rfl)
theorem idx15 : idx_main_v15 (ix3 a s n) = ix3 a s (0 : Fin 1) :=
  funext fun d => Fin.ext (by match d with | ⟨0, _⟩ => rfl | ⟨1, _⟩ => rfl | ⟨2, _⟩ => rfl)
theorem idx22 : idx_main_v22 (ix3 a s n) = ix3 a s (0 : Fin 1) :=
  funext fun d => Fin.ext (by match d with | ⟨0, _⟩ => rfl | ⟨1, _⟩ => rfl | ⟨2, _⟩ => rfl)
theorem idx27 : idx_main_v27 (ix3 a s n) = ix3 a s (0 : Fin 1) :=
  funext fun d => Fin.ext (by match d with | ⟨0, _⟩ => rfl | ⟨1, _⟩ => rfl | ⟨2, _⟩ => rfl)

end Indices

/-! ## The stages, on the row (a, s) -/

section Stages
variable (x0 : (⟨S4x2048x4096, .f32⟩ : BufTy).Contents (Elt Ideal)) (x1 : (⟨S4096x4096, .f32⟩ : BufTy).Contents (Elt Ideal))
  (x2 x3 x4 x5 x6 : (⟨S4096, .f32⟩ : BufTy).Contents (Elt Ideal))

/-- The linear stage of the input row (a, s): the sign table is read at (output column, contracted position). -/
def hRow (a : Fin 4) (s : Fin 2048) : Fin 4096 → EReal :=
  linRow (fun k => x0 (ix3 a s k)) (fun k => x2 (ix1 k)) (fun k j => Ideal.sign (x1 (ix2 j k))) (fun j => x3 (ix1 j)) (fun j => x4 (ix1 j))

/-- The reference's linear stage at (a, s, n). -/
theorem v10_apply (a : Fin 4) (s : Fin 2048) (n : Fin 4096) :
    val_main_v10 (F := Ideal) x0 x1 x2 x3 x4 (ix3 a s n) = hRow x0 x1 x2 x3 x4 a s n := by
  rw [val_main_v10_apply, val_main_v7_apply, val_main_v4_apply, val_main_v6_apply, val_main_v5_apply, val_main_v9_apply,
    val_main_v8_apply]
  simp only [lidx4, ridx4, val_main_v3_apply, val_main_v2_apply, val_main_v1_apply, val_main_v0_apply, idx2, idx6, idx9]
  rfl

/-- The column of means at (a, s, ·): the mean of the linear stage's row. -/
theorem v14_apply (a : Fin 4) (s : Fin 2048) (u : Fin 1) :
    val_main_v14 (F := Ideal) x0 x1 x2 x3 x4 (ix3 a s u) = rowMean cLanes (hRow x0 x1 x2 x3 x4 a s) := by
  rw [val_main_v14_apply, val_main_v12_apply, val_main_v11_apply, val_main_v13_apply, val_main_cst_0_apply, val_main_cst_apply]
  simp only [idx11, v10_apply, Ideal.ofBits_def, Ideal.ofBits_zero_f32, zero_add]
  rfl

/-- The centred array at (a, s, n). -/
theorem v16_apply (a : Fin 4) (s : Fin 2048) (n : Fin 4096) :
    val_main_v16 (F := Ideal) x0 x1 x2 x3 x4 (ix3 a s n) = centred cLanes (hRow x0 x1 x2 x3 x4 a s) n := by
  rw [val_main_v16_apply, val_main_v15_apply, idx15, v14_apply, v10_apply]
  rfl

/-- The same array as the reference prints it a second time. -/
theorem v23_apply (a : Fin 4) (s : Fin 2048) (n : Fin 4096) :
    val_main_v23 (F := Ideal) x0 x1 x2 x3 x4 (ix3 a s n) = centred cLanes (hRow x0 x1 x2 x3 x4 a s) n := by
  rw [val_main_v23_apply, val_main_v22_apply, idx22, v14_apply, v10_apply]
  rfl

/-- The column of variances at (a, s, ·). -/
theorem v21_apply (a : Fin 4) (s : Fin 2048) (u : Fin 1) :
    val_main_v21 (F := Ideal) x0 x1 x2 x3 x4 (ix3 a s u)
      = rowMean cLanes (fun j => centred cLanes (hRow x0 x1 x2 x3 x4 a s) j * centred cLanes (hRow x0 x1 x2 x3 x4 a s) j) := by
  rw [val_main_v21_apply, val_main_v19_apply, val_main_v18_apply, val_main_v20_apply, val_main_cst_2_apply, val_main_cst_1_apply]
  simp only [idx18, val_main_v17_apply, v16_apply, Ideal.ofBits_def, Ideal.ofBits_zero_f32, zero_add]
  rfl

/-- The normalised array at (a, s, n). -/
theorem v28_apply (a : Fin 4) (s : Fin 2048) (n : Fin 4096) :
    val_main_v28 (F := Ideal) x0 x1 x2 x3 x4 (ix3 a s n) = normRow cLanes cGuard (hRow x0 x1 x2 x3 x4 a s) n := by
  rw [val_main_v28_apply, val_main_v27_apply, idx27, val_main_v26_apply, val_main_v25_apply, val_main_v24_apply,
    val_main_cst_3_apply, v21_apply, v23_apply]
  rfl

/-- THE REFERENCE AT AN ENTRY: its result at (a, s, n) is `outRow` of the input row (a, s) at `n`. -/
theorem v34_apply (a : Fin 4) (s : Fin 2048) (n : Fin 4096) :
    val_main_v34 (F := Ideal) x0 x1 x2 x3 x4 x5 x6 (ix3 a s n)
      = outRow cLanes cGuard (fun k => x0 (ix3 a s k)) (fun k => x2 (ix1 k)) (fun k j => Ideal.sign (x1 (ix2 j k)))
          (fun j => x3 (ix1 j)) (fun j => x4 (ix1 j)) (fun j => x5 (ix1 j)) (fun j => x6 (ix1 j)) n := by
  rw [val_main_v34_apply, val_main_v31_apply, val_main_v30_apply, val_main_v29_apply, val_main_v33_apply, val_main_v32_apply,
    idx30, idx33, v28_apply]
  rfl

end Stages

end Cert.ReferenceIdeal.Rows

end
-- ==== Proof.BodyRows.lean ====
/-
  The kernel body's stored value, read entry by entry.

  At a grid point the body holds a block of 256 input rows `x0`, the whole sign table `x1` laid out
  (contracted position, output column), and five parameter rows `x2 … x6` of shape [1, 4096]. It stores ONE value, whose
  entry (p, q) depends only on row p of `x0`: the linear stage of that row (`linArr`: scale, one matrix product into a
  zero accumulator, output scale, bias), normalised along the lanes (`nArr`), times the gain row plus the shift row.
  This file names the two stages as arrays, checks that the printed payload is their composition, and reads each on a row:
  the result is `outRow` of RowSpec.
-/
import proofs.«163768_j88270167867535_2_alg».proof.Proof.Gen.KernelIdeal.Skeleton
import proofs.«163768_j88270167867535_2_alg».proof.Proof.LibRowLayers
import proofs.«163768_j88270167867535_2_alg».proof.Proof.LibLayerNormRows
import proofs.«163768_j88270167867535_2_alg».proof.Proof.RowSpec
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.KernelIdeal.Gen
open Cert.RowLayers Cert.LayerNormRows Cert.SignLinearNorm

/-- The body's matrix product contracts the left operand's columns with the right operand's rows. -/
theorem rowsTimesCols : RowsTimesCols dot_S256x4096_S4096x4096_S256x4096_1_0_0_1_n_n where
  rank := rfl
  size := rfl
  lhs0 := fun j q => by
    unfold DotDims.lhsIdx
    rw [dif_neg (show ¬(0 : Fin S256x4096.rank) ∈ dot_S256x4096_S4096x4096_S256x4096_1_0_0_1_n_n.lhsBatch by decide),
      dif_pos (show (0 : Fin S256x4096.rank) ∈ dot_S256x4096_S4096x4096_S256x4096_1_0_0_1_n_n.lhsNonContracting by decide)]
    rfl
  lhs1 := fun j q => dot_S256x4096_S4096x4096_S256x4096_1_0_0_1_n_n.lhsIdx_val_of_single rfl j q
  rhs0 := fun j q => dot_S256x4096_S4096x4096_S256x4096_1_0_0_1_n_n.rhsIdx_val_of_single rfl j q
  rhs1 := fun j q => by
    unfold DotDims.rhsIdx
    rw [dif_neg (show ¬(1 : Fin S4096x4096.rank) ∈ dot_S256x4096_S4096x4096_S256x4096_1_0_0_1_n_n.rhsBatch by decide),
      dif_pos (show (1 : Fin S4096x4096.rank) ∈ dot_S256x4096_S4096x4096_S256x4096_1_0_0_1_n_n.rhsNonContracting by decide)]
    rfl

/-! ## The two stages, as arrays -/

/-- A parameter row [1, 4096] broadcast down the 256 rows of the block. -/
def rowsOf (v : Vec Ideal S1x4096 .f32) : FVec Ideal S256x4096 .f32 :=
  broadcastTo S256x4096 (shapeCast S1x4096 v shapeCasts_S1x4096_S1x4096) broadcasts_S1x4096_S256x4096

/-- The linear stage of the block: rows scaled entry by entry, multiplied into the sign table from a zero accumulator,
    scaled per output column, and biased. -/
def linArr (x0 : Vec Ideal S256x4096 .f32) (x1 : Vec Ideal S4096x4096 .bf16) (x2 x3 x4 : Vec Ideal S1x4096 .f32) :
    FVec Ideal S256x4096 .f32 :=
  addf (mulf (matmul dot_S256x4096_S4096x4096_S256x4096_1_0_0_1_n_n none
      (truncf .bf16 (mulf (shapeCast S256x4096 x0 shapeCasts_S256x4096_S256x4096 : FVec Ideal S256x4096 .f32) (rowsOf x2)) bitsLt_bf16_f32 : FVec Ideal S256x4096 .bf16)
      (shapeCast S4096x4096 x1 shapeCasts_S4096x4096_S4096x4096 : FVec Ideal S4096x4096 .bf16) (constant S256x4096 .f32 0x00000000#32)) (rowsOf x3)) (rowsOf x4)

/-- A block with each row's mean (sum over the lanes, divided by the lane count) subtracted. -/
def cArr (h : FVec Ideal S256x4096 .f32) : FVec Ideal S256x4096 .f32 :=
  subf h (broadcastTo S256x4096 (divf (shapeCast S256x1
      (multiReduction .add [1] S256 h 0x00000000#32 reduces_S256x4096_S256 (.inl rfl) rfl) shapeCasts_S256_S256x1)
    (broadcast S256x1 (Scalar.ofBits .f32 0x45800000#32))) broadcasts_S256x1_S256x4096)

/-- A block normalised along the lanes. -/
def nArr (h : FVec Ideal S256x4096 .f32) : FVec Ideal S256x4096 .f32 :=
  mulf (cArr h) (broadcastTo S256x4096 (rsqrt (addf (divf (shapeCast S256x1
      (multiReduction .add [1] S256 (mulf (cArr h) (cArr h)) 0x00000000#32 reduces_S256x4096_S256 (.inl rfl) rfl) shapeCasts_S256_S256x1)
    (broadcast S256x1 (Scalar.ofBits .f32 0x45800000#32))) (broadcast S256x1 (Scalar.ofBits .f32 0x3727C5AC#32))))
    broadcasts_S256x1_S256x4096)

/-- The stored value is the normalised linear stage times the gain row plus the shift row. -/
theorem stored_eq (x0 : Vec Ideal S256x4096 .f32) (x1 : Vec Ideal S4096x4096 .bf16) (x2 x3 x4 x5 x6 : Vec Ideal S1x4096 .f32) :
    k0_pay1 (F := Ideal) (k0_pay2 x0 x2 x1 x3 x4 x5) x6
      = addf (mulf (nArr (linArr x0 x1 x2 x3 x4)) (rowsOf x5)) (rowsOf x6) := rfl

/-! ## Read on a row -/

/-- Every row of a broadcast parameter row is that row. -/
theorem rowOf_rowsOf (v : Vec Ideal S1x4096 .f32) (p : Fin 256) : rowOf (rowsOf v) p = rowOf v 0 := by
  unfold rowsOf
  rw [rowOf_broadcastTo, shapeCast_self]

/-- Row `p` of the linear stage is `linRow` of row `p` of the input block. -/
theorem linArr_row (x0 : Vec Ideal S256x4096 .f32) (x1 : Vec Ideal S4096x4096 .bf16) (x2 x3 x4 : Vec Ideal S1x4096 .f32) (p : Fin 256) :
    rowOf (linArr x0 x1 x2 x3 x4) p
      = linRow (rowOf x0 p) (rowOf x2 0) (fun k j => x1 (ix2 k j)) (rowOf x3 0) (rowOf x4 0) := by
  funext j
  show rowOf (matmul dot_S256x4096_S4096x4096_S256x4096_1_0_0_1_n_n none
      (truncf .bf16 (mulf (shapeCast S256x4096 x0 shapeCasts_S256x4096_S256x4096 : FVec Ideal S256x4096 .f32) (rowsOf x2)) bitsLt_bf16_f32 : FVec Ideal S256x4096 .bf16)
      (shapeCast S4096x4096 x1 shapeCasts_S4096x4096_S4096x4096 : FVec Ideal S4096x4096 .bf16) (constant S256x4096 .f32 0x00000000#32)) p j
        * rowOf (rowsOf x3) p j + rowOf (rowsOf x4) p j = _
  rw [rowOf_rowsOf, rowOf_rowsOf, rowOf_matmul_zero rowsTimesCols, shapeCast_self, shapeCast_self]
  unfold linRow
  refine congrArg (fun z => z * rowOf x3 0 j + rowOf x4 0 j) (Finset.sum_congr rfl fun k _ => ?_)
  show x0 (ix2 p k) * rowOf (rowsOf x2) p k * x1 (ix2 k j) = _
  rw [rowOf_rowsOf]
  rfl

/-- Entry (p, q) of the normalised block is the normalised row `p` at `q`. -/
theorem nArr_apply (h : FVec Ideal S256x4096 .f32) (p : Fin 256) (q : Fin 4096) :
    nArr h (ix2 p q) = normRow cLanes cGuard (rowOf h p) q :=
  normArray_apply h 0x00000000#32 reduces_S256x4096_S256 (.inl rfl) rfl shapeCasts_S256_S256x1 broadcasts_S256x1_S256x4096
    cLanes cGuard p q (cArr h) rfl

/-- THE BODY AT AN ENTRY: the stored value at (p, q) is `outRow` of row `p` of the input block at `q`. -/
theorem stored_apply (x0 : Vec Ideal S256x4096 .f32) (x1 : Vec Ideal S4096x4096 .bf16) (x2 x3 x4 x5 x6 : Vec Ideal S1x4096 .f32)
    (p : Fin 256) (q : Fin 4096) :
    k0_pay1 (F := Ideal) (k0_pay2 x0 x2 x1 x3 x4 x5) x6 (ix2 p q)
      = outRow cLanes cGuard (rowOf x0 p) (rowOf x2 0) (fun k j => x1 (ix2 k j)) (rowOf x3 0) (rowOf x4 0) (rowOf x5 0) (rowOf x6 0) q := by
  rw [stored_eq]
  show nArr (linArr x0 x1 x2 x3 x4) (ix2 p q) * rowOf (rowsOf x5) p q + rowOf (rowsOf x6) p q = _
  rw [nArr_apply, linArr_row, rowOf_rowsOf, rowOf_rowsOf]
  rfl

end Cert.KernelIdeal.Body

end
-- ==== Proof.BlocksToArray.lean ====
/-
  From what each grid point writes back to the whole result array.

  Grid point `t` (of 32) works on rows 256·t … 256·t + 255: its input block is those rows of the [8192, 4096] input, the
  sign table and the five parameter rows are staged whole (block (0, 0) of their arrays at every point), and its output
  block is the same rows of the result. Since an entry of the stored value depends only on its own input row (BodyRows),
  the block a point writes back is the restriction of ONE function of the arrays the region finds: entry (r, q) of the result
  is `outRow` of row r of the input (`wholeOf`). The 32 row blocks tile the result, so after the run the array is that function.
-/
import proofs.«163768_j88270167867535_2_alg».proof.Proof.Gen.KernelIdeal.Frame
import proofs.«163768_j88270167867535_2_alg».proof.Proof.BodyRows
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RowLayers Cert.LayerNormRows Cert.SignLinearNorm

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arrays the region finds: entry (r, q) is `outRow` of input row r at q. -/
def wholeOf (X : S8192x4096.Idx → EReal) (Wt : S4096x4096.Idx → EReal) (p2 p3 p4 p5 p6 : S1x4096.Idx → EReal) :
    S8192x4096.Idx → EReal :=
  fun i => outRow cLanes cGuard (rowOf X (i 0)) (rowOf p2 0) (fun k j => Wt (ix2 k j)) (rowOf p3 0) (rowOf p4 0) (rowOf p5 0)
    (rowOf p6 0) (i 1)

/-- The printed index maps over the 32 points: the input block moves with the output block along the rows, every other
    window stays at block (0, 0), and the output's block row is below 32. -/
theorem idx_facts : ∀ t : Fin cfg0.N, win0_0.index t (0 : Fin 2) = win0_7.index t (0 : Fin 2)
    ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 31 :=
  (by decide +kernel : ∀ t : Fin grid0.N, _)

/-- Every block row of the result is some point's. -/
theorem idx_onto : ∀ q0 : Fin 32, ∃ t : Fin cfg0.N, win0_7.index t = ![q0.val, 0] :=
  (by decide +kernel : ∀ q0 : Fin 32, ∃ t : Fin grid0.N, win0_7.index t = ![q0.val, 0])

/-! ## The input blocks, read where the output block's rows say -/

/-- Row `p` of the input block at point `t` is row `(output block row)·256 + p` of the input array. -/
theorem inputRow (c : Dev nD) (t : Fin cfg0.N) (p : Fin 256) (r : Fin 8192) (hr : r.val = win0_7.index t (0 : Fin 2) * 256 + p.val) :
    rowOf (iblk m c 0 t) p = rowOf (V m c main_v0) r := by
  obtain ⟨e0, e1, -⟩ := idx_facts t
  funext k
  show V m c main_v0 (((cfg0.win 0).blk t).view.emb (ix2 p k)) = V m c main_v0 (ix2 r k)
  have h : ((cfg0.win 0).blk t).view.emb (ix2 p k) = ix2 r k := by
    funext a; apply Fin.ext
    match a with
    | ⟨0, _⟩ => show win0_0.index t (0 : Fin 2) * 256 + 1 * p.val = r.val; omega
    | ⟨1, _⟩ => show win0_0.index t (1 : Fin 2) * 4096 + 1 * k.val = k.val; omega
  rw [h]

/-- The staged sign table at any point is the whole table. -/
theorem tableBlock (c : Dev nD) (t : Fin cfg0.N) (k j : Fin 4096) : iblk m c 1 t (ix2 k j) = V m c main_v3 (ix2 k j) := by
  obtain ⟨-, -, -, e0, e1, -⟩ := idx_facts t
  show V m c main_v3 (((cfg0.win 1).blk t).view.emb (ix2 k j)) = V m c main_v3 (ix2 k j)
  have h : ((cfg0.win 1).blk t).view.emb (ix2 k j) = ix2 k j := by
    funext a; apply Fin.ext
    match a with
    | ⟨0, _⟩ => show win0_1.index t (0 : Fin 2) * 4096 + 1 * k.val = k.val; omega
    | ⟨1, _⟩ => show win0_1.index t (1 : Fin 2) * 4096 + 1 * j.val = j.val; omega
  rw [h]

/-- Each staged parameter row at any point is the whole [1, 4096] array. -/
theorem paramRow2 (c : Dev nD) (t : Fin cfg0.N) : rowOf (iblk m c 2 t) 0 = rowOf (V m c main_v4) 0 := by
  obtain ⟨-, -, -, -, -, e0, e1, -⟩ := idx_facts t
  funext k
  show V m c main_v4 (((cfg0.win 2).blk t).view.emb (ix2 (0 : Fin 1) k)) = V m c main_v4 (ix2 (0 : Fin 1) k)
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 4096 + 1 * k.val = k.val; omega
  rw [h]
theorem paramRow3 (c : Dev nD) (t : Fin cfg0.N) : rowOf (iblk m c 3 t) 0 = rowOf (V m c main_v5) 0 := by
  obtain ⟨-, -, -, -, -, -, -, e0, e1, -⟩ := idx_facts t
  funext k
  show V m c main_v5 (((cfg0.win 3).blk t).view.emb (ix2 (0 : Fin 1) k)) = V m c main_v5 (ix2 (0 : Fin 1) k)
  have h : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 4096 + 1 * k.val = k.val; omega
  rw [h]
theorem paramRow4 (c : Dev nD) (t : Fin cfg0.N) : rowOf (iblk m c 4 t) 0 = rowOf (V m c main_v6) 0 := by
  obtain ⟨-, -, -, -, -, -, -, -, -, e0, e1, -⟩ := idx_facts t
  funext k
  show V m c main_v6 (((cfg0.win 4).blk t).view.emb (ix2 (0 : Fin 1) k)) = V m c main_v6 (ix2 (0 : Fin 1) k)
  have h : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 4096 + 1 * k.val = k.val; omega
  rw [h]
theorem paramRow5 (c : Dev nD) (t : Fin cfg0.N) : rowOf (iblk m c 5 t) 0 = rowOf (V m c main_v7) 0 := by
  obtain ⟨-, -, -, -, -, -, -, -, -, -, -, e0, e1, -⟩ := idx_facts t
  funext k
  show V m c main_v7 (((cfg0.win 5).blk t).view.emb (ix2 (0 : Fin 1) k)) = V m c main_v7 (ix2 (0 : Fin 1) k)
  have h : ((cfg0.win 5).blk t).view.emb (ix2 (0 : Fin 1) k) = ix2 (0 : Fin 1) k := by
    funext a; apply Fin.ext
    match a with
    | ⟨0, _⟩ => show win0_5.index t (0 : Fin 2) * 1 + 1 * 0 = 0; omega
    | ⟨1, _⟩ => show win0_5.index t (1 : Fin 2) * 4096 + 1 * k.val = k.val; omega
  rw [h]
theorem paramRow6 (c : Dev nD) (t : Fin cfg0.N) : rowOf (iblk m c 6 t) 0 = rowOf (V m c main_v8) 0 := by
  obtain ⟨-, -, -, -, -, -, -, -, -, -, -, -, -, e0, e1, -⟩ := idx_facts t
  funext k
  show V m c main_v8 (((cfg0.win 6).blk t).view.emb (ix2 (0 : Fin 1) k)) = V m c main_v8 (ix2 (0 : Fin 1) k)
  have h : ((cfg0.win 6).blk t).view.emb (ix2 (0 : Fin 1) k) = ix2 (0 : Fin 1) k := by
    funext a; apply Fin.ext
    match a with
    | ⟨0, _⟩ => show win0_6.index t (0 : Fin 2) * 1 + 1 * 0 = 0; omega
    | ⟨1, _⟩ => show win0_6.index t (1 : Fin 2) * 4096 + 1 * k.val = k.val; omega
  rw [h]

/-! ## What a point writes back, the cover, and the array after the run -/

/-- WHAT POINT `t` WRITES BACK is block `t` of `wholeOf` of the arrays the region finds. -/
theorem flushed_eq (c : Dev nD) (t : Fin cfg0.N) :
    (dats m 0 c).flushed 7 t = ((cfg0.win 7).blk t).view.read (Elt Ideal)
      (wholeOf (V m c main_v0) (V m c main_v3) (V m c main_v4) (V m c main_v5) (V m c main_v6) (V m c main_v7) (V m c main_v8)) := by
  show (cfg0.win 7).cut (grid0.coords t) ((dats m 0 c).after 7 t) = _
  rw [after0_7]
  unfold out0_7
  rw [View.canon_unit_zero hz]
  simp only [View.ld_unit_zero (S := S256x4096) hz, View.ld_unit_zero (S := S1x4096) hz, View.ld_unit_zero (S := S4096x4096) hz]
  funext j
  obtain ⟨p, q, rfl⟩ : ∃ (p : Fin 256) (q : Fin 4096), j = ix2 p q := ⟨j 0, j 1, eq_ix2 j⟩
  obtain ⟨-, -, e71, -⟩ := idx_facts t
  have hp : p.val < 256 := p.isLt
  have h31 : win0_7.index t (0 : Fin 2) ≤ 31 := (idx_facts t).2.2.2.2.2.2.2.2.2.2.2.2.2.2.2
  have hemb : ((cfg0.win 7).blk t).view.emb (ix2 p q)
      = ix2 (⟨win0_7.index t (0 : Fin 2) * 256 + p.val, by omega⟩ : Fin 8192) q := by
    funext a; apply Fin.ext
    match a with
    | ⟨0, _⟩ => show win0_7.index t (0 : Fin 2) * 256 + 1 * p.val = win0_7.index t (0 : Fin 2) * 256 + p.val; omega
    | ⟨1, _⟩ => show win0_7.index t (1 : Fin 2) * 4096 + 1 * q.val = q.val; omega
  show k0_pay1 (F := Ideal) (k0_pay2 (iblk m c 0 t) (iblk m c 2 t) (iblk m c 1 t) (iblk m c 3 t) (iblk m c 4 t) (iblk m c 5 t))
      (iblk m c 6 t) (ix2 p q)
    = wholeOf (V m c main_v0) (V m c main_v3) (V m c main_v4) (V m c main_v5) (V m c main_v6) (V m c main_v7) (V m c main_v8)
        (((cfg0.win 7).blk t).view.emb (ix2 p q))
  rw [hemb]
  refine (Cert.KernelIdeal.Body.stored_apply (iblk m c 0 t) (iblk m c 1 t) (iblk m c 2 t) (iblk m c 3 t) (iblk m c 4 t)
    (iblk m c 5 t) (iblk m c 6 t) p q).trans ?_
  unfold wholeOf
  rw [inputRow m c t p ⟨win0_7.index t (0 : Fin 2) * 256 + p.val, by omega⟩ rfl, paramRow2, paramRow3, paramRow4, paramRow5,
    paramRow6, show (fun k j => iblk m c 1 t (ix2 k j)) = fun k j => V m c main_v3 (ix2 k j) from
      funext fun k => funext fun j => tableBlock m c t k j]

/-- An index of the result is in point `t`'s block iff each coordinate is in the block's range on its axis. -/
theorem mem_blk (t : Fin cfg0.N) (i : S8192x4096.Idx) :
    i ∈ ((cfg0.win 7).blk t).view.set ↔ ∀ a : Fin 2, win0_7.index t a * S256x4096.size a ≤ (i a).val
      ∧ (i a).val < win0_7.index t a * S256x4096.size a + S256x4096.size a := by
  show i ∈ ((View.whole main_v9).slice (win0_7.rect t)).set ↔ _
  rw [View.set_slice_whole, Rect.mem_set_unit]
  exact Iff.rfl

/-- Every index of the result lies in the block of the point whose block row is (its row) / 256. -/
theorem covered (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨t, ht⟩ := idx_onto ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 4096 ≤ (i 1).val ∧ (i 1).val < win0_7.index t (1 : Fin 2) * 4096 + 4096
    omega

/-- THE RESULT ARRAY after the run is `wholeOf` of the arrays the region finds. -/
theorem final (c : Dev nD) : (dats m 0 c).arrAt 7 cfg0.N
    = wholeOf (V m c main_v0) (V m c main_v3) (V m c main_v4) (V m c main_v5) (V m c main_v6) (V m c main_v7) (V m c main_v8) :=
  (dats m 0 c).arrAt_eq_of_cover 7 _ (fun t _ => flushed_eq m c t) covered

end Cert.KernelIdeal.Whole

end
-- ==== Proof.LibRelayout.lean ====
/-
  Re-layouts of an array read at an index given by its coordinates.

  A row-major reshape keeps the position of every entry in the flat order. So a reshape that MERGES leading axes
  ([a, b, c] to [a·b, c]) reads, at row `p·b + q`, the entry `(p, q, ·)`; one that SPLITS them back reads the same the other
  way; one that INSERTS a unit axis forgets the unit coordinate. A broadcast along an axis of extent one reads the one
  entry there is on that axis. Each statement below names both indices by coordinates, for any extents, so that a chain of
  such operations is walked by `rw`, outermost operation first.
-/
import Idealize.ShloMosaic.Lib.ValueIdx
import Idealize.ShloMosaic.Lib.ValueLayout
import Idealize.ShloMosaic.Lib.Pipeline.Value

namespace Cert.Relayout

open Idealize.ShloMosaic Idealize.ShloMosaic.ValueIdx

variable {α : Type}

/-! ## Merging and splitting leading axes -/

/-- `[a, b, c]` merged to `[M, c]`: row `p·b + q` is `(p, q, ·)`. -/
theorem merge_ab_apply {a b c M : ℕ} (x : (⟨3, ![a, b, c]⟩ : Shape).Idx → α) (h : (⟨3, ![a, b, c]⟩ : Shape).ShapeCasts ⟨2, ![M, c]⟩)
    (p : Fin a) (q : Fin b) (k : Fin c) (r : Fin M) (hr : r.val = p.val * b + q.val) :
    shapeCast ⟨2, ![M, c]⟩ x h (ix2 r k) = x (ix3 p q k) :=
  shapeCast_apply x h _ _ (by
    rw [Shape.rowMajor_val_three, Shape.rowMajor_val_two]
    show (p.val * b + q.val) * c + k.val = r.val * c + k.val
    rw [hr])

/-- `[M, c]` split to `[a, b, c]`: `(p, q, ·)` is row `p·b + q`. -/
theorem split_ab_apply {a b c M : ℕ} (x : (⟨2, ![M, c]⟩ : Shape).Idx → α) (h : (⟨2, ![M, c]⟩ : Shape).ShapeCasts ⟨3, ![a, b, c]⟩)
    (p : Fin a) (q : Fin b) (k : Fin c) (r : Fin M) (hr : r.val = p.val * b + q.val) :
    shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- `[a, b, c, d]` merged to `[M, d]`: row `(p·b + q)·c + s` is `(p, q, s, ·)`. -/
theorem merge_abc_apply {a b c d M : ℕ} (x : (⟨4, ![a, b, c, d]⟩ : Shape).Idx → α) (h : (⟨4, ![a, b, c, d]⟩ : Shape).ShapeCasts ⟨2, ![M, d]⟩)
    (p : Fin a) (q : Fin b) (s : Fin c) (k : Fin d) (r : Fin M) (hr : r.val = (p.val * b + q.val) * c + s.val) :
    shapeCast ⟨2, ![M, d]⟩ x h (ix2 r k) = x (ix4 p q s k) :=
  shapeCast_apply x h _ _ (by
    rw [Shape.rowMajor_val_four, Shape.rowMajor_val_two]
    show ((p.val * b + q.val) * c + s.val) * d + k.val = r.val * d + k.val
    rw [hr])

/-- `[M, d]` split to `[a, b, c, d]`: `(p, q, s, ·)` is row `(p·b + q)·c + s`. -/
theorem split_abc_apply {a b c d M : ℕ} (x : (⟨2, ![M, d]⟩ : Shape).Idx → α) (h : (⟨2, ![M, d]⟩ : Shape).ShapeCasts ⟨4, ![a, b, c, d]⟩)
    (p : Fin a) (q : Fin b) (s : Fin c) (k : Fin d) (r : Fin M) (hr : r.val = (p.val * b + q.val) * c + s.val) :
    shapeCast ⟨4, ![a, b, c, d]⟩ x h (ix4 p q s k) = x (ix2 r k) :=
  shapeCast_apply x h _ _ (by
    rw [Shape.rowMajor_val_four, Shape.rowMajor_val_two]
    show r.val * d + k.val = ((p.val * b + q.val) * c + s.val) * d + k.val
    rw [hr])

/-- `[a, b, c, d]` with its two leading axes merged, `[N, c, d]`: leading coordinate `p·b + q` is `(p, q, ·, ·)`. -/
theorem mergeLead_apply {a b c d N : ℕ} (x : (⟨4, ![a, b, c, d]⟩ : Shape).Idx → α) (h : (⟨4, ![a, b, c, d]⟩ : Shape).ShapeCasts ⟨3, ![N, c, d]⟩)
    (p : Fin a) (q : Fin b) (s : Fin c) (k : Fin d) (n : Fin N) (hn : n.val = p.val * b + q.val) :
    shapeCast ⟨3, ![N, c, d]⟩ x h (ix3 n s k) = x (ix4 p q s k) :=
  shapeCast_apply x h _ _ (by
    rw [Shape.rowMajor_val_four, Shape.rowMajor_val_three]
    show ((p.val * b + q.val) * c + s.val) * d + k.val = (n.val * c + s.val) * d + k.val
    rw [hn])

/-! ## A unit axis inserted in the middle -/

/-- `[a, b, c]` viewed `[a, 1, b, c]`. -/
theorem unitSecond_apply {a b c : ℕ} (x : (⟨3, ![a, b, c]⟩ : Shape).Idx → α) (h : (⟨3, ![a, b, c]⟩ : Shape).ShapeCasts ⟨4, ![a, 1, b, c]⟩)
    (p : Fin a) (u : Fin 1) (q : Fin b) (k : Fin c) :
    shapeCast ⟨4, ![a, 1, b, c]⟩ x h (ix4 p u q k) = x (ix3 p q k) :=
  shapeCast_apply x h _ _ (by
    have hu : u.val = 0 := by omega
    rw [Shape.rowMajor_val_four, Shape.rowMajor_val_three]
    show (p.val * b + q.val) * c + k.val = ((p.val * 1 + u.val) * b + q.val) * c + k.val
    rw [hu, Nat.mul_one, Nat.add_zero])

/-- `[a, b, c]` viewed `[a, b, 1, c]`. -/
theorem unitThird_apply {a b c : ℕ} (x : (⟨3, ![a, b, c]⟩ : Shape).Idx → α) (h : (⟨3, ![a, b, c]⟩ : Shape).ShapeCasts ⟨4, ![a, b, 1, c]⟩)
    (p : Fin a) (q : Fin b) (u : Fin 1) (k : Fin c) :
    shapeCast ⟨4, ![a, b, 1, c]⟩ x h (ix4 p q u k) = x (ix3 p q k) :=
  shapeCast_apply x h _ _ (by
    have hu : u.val = 0 := by omega
    rw [Shape.rowMajor_val_four, Shape.rowMajor_val_three]
    show (p.val * b + q.val) * c + k.val = ((p.val * b + q.val) * 1 + u.val) * c + k.val
    rw [hu, Nat.mul_one, Nat.add_zero])

/-- A row `[1, c]` viewed `[1, 1, 1, c]`. -/
theorem rowToUnits_apply {c : ℕ} (x : (⟨2, ![1, c]⟩ : Shape).Idx → α) (h : (⟨2, ![1, c]⟩ : Shape).ShapeCasts ⟨4, ![1, 1, 1, c]⟩)
    (u1 u2 u3 : Fin 1) (k : Fin c) :
    shapeCast ⟨4, ![1, 1, 1, c]⟩ x h (ix4 u1 u2 u3 k) = x (ix2 (0 : Fin 1) k) :=
  shapeCast_apply x h _ _ (by
    have h1 : u1.val = 0 := by omega
    have h2 : u2.val = 0 := by omega
    have h3 : u3.val = 0 := by omega
    rw [Shape.rowMajor_val_four, Shape.rowMajor_val_two]
    show 0 * c + k.val = ((u1.val * 1 + u2.val) * 1 + u3.val) * c + k.val
    rw [h1, h2, h3])

/-! ## Broadcasts along one axis of a rank-4 array -/

/-- `[a, 1, c, d]` broadcast to `[a, b, c, d]`. -/
theorem bcastSecond_apply {a b c d : ℕ} (x : (⟨4, ![a, 1, c, d]⟩ : Shape).Idx → α) (h : (⟨4, ![a, 1, c, d]⟩ : Shape).Broadcasts ⟨4, ![a, b, c, d]⟩)
    (p : Fin a) (q : Fin b) (s : Fin c) (k : Fin d) :
    broadcastTo ⟨4, ![a, b, c, d]⟩ x h (ix4 p q s k) = x (ix4 p (0 : Fin 1) s k) :=
  broadcastTo_apply x h _ _ fun ax => by
    match ax with
    | ⟨0, _⟩ => show p.val = if a = 1 then 0 else p.val; split <;> [(have := p.isLt; omega); rfl]
    | ⟨1, _⟩ => show (0 : ℕ) = if (1 : ℕ) = 1 then 0 else q.val; rw [if_pos rfl]
    | ⟨2, _⟩ => show s.val = if c = 1 then 0 else s.val; split <;> [(have := s.isLt; omega); rfl]
    | ⟨3, _⟩ => show k.val = if d = 1 then 0 else k.val; split <;> [(have := k.isLt; omega); rfl]

/-- `[a, b, 1, d]` broadcast to `[a, b, c, d]`. -/
theorem bcastThird_apply {a b c d : ℕ} (x : (⟨4, ![a, b, 1, d]⟩ : Shape).Idx → α) (h : (⟨4, ![a, b, 1, d]⟩ : Shape).Broadcasts ⟨4, ![a, b, c, d]⟩)
    (p : Fin a) (q : Fin b) (s : Fin c) (k : Fin d) :
    broadcastTo ⟨4, ![a, b, c, d]⟩ x h (ix4 p q s k) = x (ix4 p q (0 : Fin 1) k) :=
  broadcastTo_apply x h _ _ fun ax => by
    match ax with
    | ⟨0, _⟩ => show p.val = if a = 1 then 0 else p.val; split <;> [(have := p.isLt; omega); rfl]
    | ⟨1, _⟩ => show q.val = if b = 1 then 0 else q.val; split <;> [(have := q.isLt; omega); rfl]
    | ⟨2, _⟩ => show (0 : ℕ) = if (1 : ℕ) = 1 then 0 else s.val; rw [if_pos rfl]
    | ⟨3, _⟩ => show k.val = if d = 1 then 0 else k.val; split <;> [(have := k.isLt; omega); rfl]

/-- `[1, 1, 1, d]` broadcast to `[a, b, c, d]`: one row for every `(p, q, s)`. -/
theorem bcastRow_apply {a b c d : ℕ} (x : (⟨4, ![1, 1, 1, d]⟩ : Shape).Idx → α) (h : (⟨4, ![1, 1, 1, d]⟩ : Shape).Broadcasts ⟨4, ![a, b, c, d]⟩)
    (p : Fin a) (q : Fin b) (s : Fin c) (k : Fin d) :
    broadcastTo ⟨4, ![a, b, c, d]⟩ x h (ix4 p q s k) = x (ix4 (0 : Fin 1) (0 : Fin 1) (0 : Fin 1) k) :=
  broadcastTo_apply x h _ _ fun ax => by
    match ax with
    | ⟨0, _⟩ => show (0 : ℕ) = if (1 : ℕ) = 1 then 0 else p.val; rw [if_pos rfl]
    | ⟨1, _⟩ => show (0 : ℕ) = if (1 : ℕ) = 1 then 0 else q.val; rw [if_pos rfl]
    | ⟨2, _⟩ => show (0 : ℕ) = if (1 : ℕ) = 1 then 0 else s.val; rw [if_pos rfl]
    | ⟨3, _⟩ => show k.val = if d = 1 then 0 else k.val; split <;> [(have := k.isLt; omega); rfl]

end Cert.Relayout
-- ==== Proof.KernelRun.lean ====
/-
  The idealized kernel's run, read: its result as one function of the seven arguments.

  Before the region the host lines re-lay the arguments: the input [4, 2048, 4096] is viewed as [8192, 4096] (row a·2048 + s
  is the input row (a, s)), the weight matrix is replaced by its sign, format-changed (the identity on extended reals) and
  transposed (so the table entry (k, j) is the sign of weight (j, k)), and each parameter vector [4096] is viewed as a row
  [1, 4096]. After the region one host line views the [8192, 4096] result as [4, 2048, 4096]. Composing these views with the
  array the region leaves (BlocksToArray), entry (a, s, n) of the program's result is `resultOf` of the arguments.
-/
import proofs.«163768_j88270167867535_2_alg».proof.Proof.Gen.KernelIdeal.Frame
import proofs.«163768_j88270167867535_2_alg».proof.Proof.BlocksToArray
import proofs.«163768_j88270167867535_2_alg».proof.Proof.ResultSpec
import proofs.«163768_j88270167867535_2_alg».proof.Proof.LibRelayout
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RowLayers Cert.LayerNormRows Cert.SignLinearNorm

variable (m : (ℓ : Loc nD τ sig) → Buf (Elt Ideal) ℓ) (ρ : Dev nD → PrngReg)

/-! ## The arrays the region finds, as the host lines' terms of the arguments -/

theorem found_v0 (c : Dev nD) : (V m c main_v0 : S8192x4096.Idx → EReal)
    = shapeCast S8192x4096 ((m ((c : Thread nD τ).loc main_arg0)) : S4x2048x4096.Idx → EReal) shapeCasts_S4x2048x4096_S8192x4096 := by
  show StableHlo.after hostOps0 (fun b => m (c, b)) (Proc.devRef .tc main_v0) = _
  after_results
  rfl

theorem found_v3 (c : Dev nD) : (V m c main_v3 : S4096x4096.Idx → EReal)
    = transpose S4096x4096 [1, 0] (truncf .bf16 (Host.sign ((m ((c : Thread nD τ).loc main_arg1)) : FVec Ideal S4096x4096 .f32)) bitsLt_bf16_f32
        : FVec Ideal S4096x4096 .bf16) transposes_S4096x4096_S4096x4096_1_0 := by
  show StableHlo.after hostOps0 (fun b => m (c, b)) (Proc.devRef .tc main_v3) = _
  after_results

theorem found_v4 (c : Dev nD) : (V m c main_v4 : S1x4096.Idx → EReal)
    = shapeCast S1x4096 ((m ((c : Thread nD τ).loc main_arg2)) : S4096.Idx → EReal) shapeCasts_S4096_S1x4096 := by
  show StableHlo.after hostOps0 (fun b => m (c, b)) (Proc.devRef .tc main_v4) = _
  after_results
  rfl
theorem found_v5 (c : Dev nD) : (V m c main_v5 : S1x4096.Idx → EReal)
    = shapeCast S1x4096 ((m ((c : Thread nD τ).loc main_arg3)) : S4096.Idx → EReal) shapeCasts_S4096_S1x4096 := by
  show StableHlo.after hostOps0 (fun b => m (c, b)) (Proc.devRef .tc main_v5) = _
  after_results
  rfl
theorem found_v6 (c : Dev nD) : (V m c main_v6 : S1x4096.Idx → EReal)
    = shapeCast S1x4096 ((m ((c : Thread nD τ).loc main_arg4)) : S4096.Idx → EReal) shapeCasts_S4096_S1x4096 := by
  show StableHlo.after hostOps0 (fun b => m (c, b)) (Proc.devRef .tc main_v6) = _
  after_results
  rfl
theorem found_v7 (c : Dev nD) : (V m c main_v7 : S1x4096.Idx → EReal)
    = shapeCast S1x4096 ((m ((c : Thread nD τ).loc main_arg5)) : S4096.Idx → EReal) shapeCasts_S4096_S1x4096 := by
  show StableHlo.after hostOps0 (fun b => m (c, b)) (Proc.devRef .tc main_v7) = _
  after_results
  rfl
theorem found_v8 (c : Dev nD) : (V m c main_v8 : S1x4096.Idx → EReal)
    = shapeCast S1x4096 ((m ((c : Thread nD τ).loc main_arg6)) : S4096.Idx → EReal) shapeCasts_S4096_S1x4096 := by
  show StableHlo.after hostOps0 (fun b => m (c, b)) (Proc.devRef .tc main_v8) = _
  after_results
  rfl

/-! ## The same, on rows -/

/-- Row a·2048 + s of the input as the region finds it is the input row (a, s). -/
theorem inputRow_eq (c : Dev nD) (a : Fin 4) (s : Fin 2048) (r : Fin 8192) (hr : r.val = a.val * 2048 + s.val) :
    rowOf (V m c main_v0) r = fun k => ((m ((c : Thread nD τ).loc main_arg0)) : S4x2048x4096.Idx → EReal) (ix3 a s k) := by
  funext k
  show V m c main_v0 (ix2 r k) = _
  rw [found_v0]
  exact Cert.Relayout.merge_ab_apply _ _ a s k r hr

/-- The table the region finds holds, at (k, j), the sign of weight (j, k). -/
theorem table_eq (c : Dev nD) :
    (fun (k j : Fin 4096) => V m c main_v3 (ix2 k j)) = fun k j => Ideal.sign (((m ((c : Thread nD τ).loc main_arg1)) : S4096x4096.Idx → EReal) (ix2 j k)) := by
  funext k j
  rw [found_v3]
  exact (transpose_ix2_apply _ _ k j).trans rfl

theorem param2_eq (c : Dev nD) : rowOf (V m c main_v4) 0 = fun k => ((m ((c : Thread nD τ).loc main_arg2)) : S4096.Idx → EReal) (ix1 k) := by
  funext k
  show V m c main_v4 (ix2 (0 : Fin 1) k) = _
  rw [found_v4]
  exact shapeCast_a_1a_apply _ _ 0 k
theorem param3_eq (c : Dev nD) : rowOf (V m c main_v5) 0 = fun k => ((m ((c : Thread nD τ).loc main_arg3)) : S4096.Idx → EReal) (ix1 k) := by
  funext k
  show V m c main_v5 (ix2 (0 : Fin 1) k) = _
  rw [found_v5]
  exact shapeCast_a_1a_apply _ _ 0 k
theorem param4_eq (c : Dev nD) : rowOf (V m c main_v6) 0 = fun k => ((m ((c : Thread nD τ).loc main_arg4)) : S4096.Idx → EReal) (ix1 k) := by
  funext k
  show V m c main_v6 (ix2 (0 : Fin 1) k) = _
  rw [found_v6]
  exact shapeCast_a_1a_apply _ _ 0 k
theorem param5_eq (c : Dev nD) : rowOf (V m c main_v7) 0 = fun k => ((m ((c : Thread nD τ).loc main_arg5)) : S4096.Idx → EReal) (ix1 k) := by
  funext k
  show V m c main_v7 (ix2 (0 : Fin 1) k) = _
  rw [found_v7]
  exact shapeCast_a_1a_apply _ _ 0 k
theorem param6_eq (c : Dev nD) : rowOf (V m c main_v8) 0 = fun k => ((m ((c : Thread nD τ).loc main_arg6)) : S4096.Idx → EReal) (ix1 k) := by
  funext k
  show V m c main_v8 (ix2 (0 : Fin 1) k) = _
  rw [found_v8]
  exact shapeCast_a_1a_apply _ _ 0 k

/-! ## The result -/

/-- The region's array viewed as [4, 2048, 4096] is `resultOf` of the arguments. -/
theorem result_eq (c : Dev nD) :
    shapeCast S4x2048x4096
        (wholeOf (V m c main_v0) (V m c main_v3) (V m c main_v4) (V m c main_v5) (V m c main_v6) (V m c main_v7) (V m c main_v8))
        shapeCasts_S8192x4096_S4x2048x4096
      = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨a, s, n, rfl⟩ : ∃ (a : Fin 4) (s : Fin 2048) (n : Fin 4096), i = ix3 a s n := ⟨i 0, i 1, i 2, eq_ix3 i⟩
  have ha := a.isLt
  have hs := s.isLt
  rw [Cert.Relayout.split_ab_apply _ _ a s n (⟨a.val * 2048 + s.val, by omega⟩ : Fin 8192) rfl, resultOf_apply]
  show outRow cLanes cGuard (rowOf (V m c main_v0) (⟨a.val * 2048 + s.val, by omega⟩ : Fin 8192)) (rowOf (V m c main_v4) 0)
      (fun k j => V m c main_v3 (ix2 k j)) (rowOf (V m c main_v5) 0) (rowOf (V m c main_v6) 0) (rowOf (V m c main_v7) 0)
      (rowOf (V m c main_v8) 0) n = _
  rw [inputRow_eq m c a s _ rfl, table_eq, param2_eq, param3_eq, param4_eq, param5_eq, param6_eq]

/-- The host line after the region views the region's result array as [4, 2048, 4096]. -/
theorem tail_eq (c : Dev nD) : Pipeline.afterTail₀ cfgs (dats m) 0 (V0 m) [hostOps1] c main_v10
    = shapeCast S4x2048x4096 ((dats m 0 c).arrAt 7 cfg0.N) shapeCasts_S8192x4096_S4x2048x4096 := by
  unfold Pipeline.afterTail₀
  show StableHlo.after hostOps1 _ (Proc.devRef .tc main_v10) = _
  after_results
  exact congrArg (fun A => shapeCast S4x2048x4096 A shapeCasts_S8192x4096_S4x2048x4096)
    (Pipeline.withArrays_arr spec0 launch0.win.arr_inj c _ _ 7)

/-- THE RUN, READ: every weakly fair execution terminates with the result at `resultOf` of the arguments, the arguments
    unchanged. -/
theorem run : θ_run defs (onTc (τ := τ) (main (F := Ideal))) ⟨m, fun _ => 0, ρ⟩ fun r => ∀ c : Dev nD,
      r.2.mem ((c : Thread nD τ).loc main_v10)
        = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v10 (Pipeline.mem_restRefs_of main_v10 (by decide) (by decide))).trans
        ((tail_eq m c).trans ((congrArg (fun A => shapeCast S4x2048x4096 A shapeCasts_S8192x4096_S4x2048x4096) (final m c)).trans
          (result_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.lean ====
/-
  A one-bit linear layer followed by a layer normalisation: the kernel against its reference, over the extended reals.

  Both programs compute, for every input row x (one of 4·2048 rows of length 4096),
      h j   = (∑ k, (x k · s k) · sign (w j k)) · so j + b j              (the scaled sign-weight product, 4096 outputs)
      out j = (h j − mean h) · rsqrt (mean ((h − mean h)²) + e) · g j + bt j,     mean f = (∑ j, f j) / 4096,
  with the same divisor and the same guard `e` as float patterns. The kernel works on the input viewed as [8192, 4096], in 32
  blocks of 256 rows, with the weight's sign transposed beforehand and the product taken from a zero accumulator after a
  change of float format; the reference works on [4, 2048, 4096] with a contraction against the untransposed sign matrix and
  sums started from a zero constant. None of that changes an entry: a format change is the identity on extended reals, a
  product into a zero accumulator and a contraction are the same finite sum, and the real zero is neutral for addition.
  So no law is used that needs finite entries, and the precondition is never opened.

  The modules: RowSpec / ResultSpec (the row function and the whole result), LibLayerNormRows (a row normalised, and the
  device's keep-dims spelling of it), BodyRows (the kernel body's stored value on a row), BlocksToArray (32 row blocks tile the
  result), KernelRun (the host views around the region; the kernel's run read), RefRows (the reference read entry by entry).
  The three frames are the generated frame certificates and the reference's generated run; the idealization rewrote nothing.
-/
import proofs.«163768_j88270167867535_2_alg».proof.Defs
import proofs.«163768_j88270167867535_2_alg».proof.Proof.Gen.Kernel
import proofs.«163768_j88270167867535_2_alg».proof.Proof.Gen.Kernel.Skeleton
import proofs.«163768_j88270167867535_2_alg».proof.Proof.Gen.Kernel.Launch
import proofs.«163768_j88270167867535_2_alg».proof.Proof.Gen.Kernel.Points
import proofs.«163768_j88270167867535_2_alg».proof.Proof.Gen.Kernel.Frame
import proofs.«163768_j88270167867535_2_alg».proof.Proof.Gen.KernelIdeal
import proofs.«163768_j88270167867535_2_alg».proof.Proof.Gen.KernelIdeal.Skeleton
import proofs.«163768_j88270167867535_2_alg».proof.Proof.Gen.KernelIdeal.Launch
import proofs.«163768_j88270167867535_2_alg».proof.Proof.Gen.KernelIdeal.Points
import proofs.«163768_j88270167867535_2_alg».proof.Proof.Gen.KernelIdeal.Frame
import proofs.«163768_j88270167867535_2_alg».proof.Proof.Gen.ReferenceIdeal
import proofs.«163768_j88270167867535_2_alg».proof.Proof.Gen.Pre_finite_inputs
import proofs.«163768_j88270167867535_2_alg».proof.Proof.Gen.ReferenceIdeal.Run
import proofs.«163768_j88270167867535_2_alg».proof.Proof.Gen.ReferenceIdeal.Read
import proofs.«163768_j88270167867535_2_alg».proof.Proof.ResultSpec
import proofs.«163768_j88270167867535_2_alg».proof.Proof.RefRows
import proofs.«163768_j88270167867535_2_alg».proof.Proof.KernelRun
import Idealize.ShloMosaic.Adequacy
import Idealize.ShloMosaic.Init

noncomputable section

/-! ## The reference's result is the same whole-array function -/

namespace Cert.ReferenceIdeal.Rows

open Cert.ReferenceIdeal Cert.ReferenceIdeal.Read Idealize.ShloMosaic Idealize.ShloMosaic.ValueIdx Cert.SignLinearNorm

/-- The reference's last stage, as an array, is `resultOf` of its arguments. -/
theorem result_eq (x0 : (⟨S4x2048x4096, .f32⟩ : BufTy).Contents (Elt Ideal)) (x1 : (⟨S4096x4096, .f32⟩ : BufTy).Contents (Elt Ideal))
    (x2 x3 x4 x5 x6 : (⟨S4096, .f32⟩ : BufTy).Contents (Elt Ideal)) :
    val_main_v34 (F := Ideal) x0 x1 x2 x3 x4 x5 x6 = resultOf x0 x1 x2 x3 x4 x5 x6 := by
  funext i
  obtain ⟨a, s, n, rfl⟩ : ∃ (a : Fin 4) (s : Fin 2048) (n : Fin 4096), i = ix3 a s n := ⟨i 0, i 1, i 2, eq_ix3 i⟩
  rw [v34_apply, resultOf_apply]

end Cert.ReferenceIdeal.Rows

/-! ## The claims -/

namespace Cert.Proof

open Idealize.ShloMosaic Idealize.ShloMosaic.TcCoe Idealize.SL.Sem Cert.SignLinearNorm

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at `resultOf` of arguments that agree. -/
theorem algebraic : Cert.algebraic_KernelIdeal_ReferenceIdeal := by
  intro m ρ m' ρ' _ hagree
  refine ⟨fun c => resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.Rows.result_eq, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
